-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_c_0 : IVec S_ 32 := constantI S_ 32 0#32
  let main_v4 : IVec S16777216 32 := broadcastInDim S16777216 ![] bcast_S_S16777216 main_c_0
  let main_v5 : IVec S16777216 1 := cmpi .sge main_arg1 main_v4
  let main_c_1 : IVec S_ 1 := constantI S_ 1 1#1
  let main_v6 : IVec S_ 1 := (fun x v => Host.reduce IntOp.andi x v reducesTo_S16777216_S_d0 h_S_) main_v5 main_c_1
  let main_v7 : IVec S_ 1 := andi main_v3 main_v6
  let main_c_2 : IVec S_ 32 := constantI S_ 32 1#32
  let main_v8 : IVec S16777216 32 := broadcastInDim S16777216 ![] bcast_S_S16777216 main_c_2
  let main_v9 : IVec S16777216 1 := cmpi .sle main_arg1 main_v8
  let main_c_3 : IVec S_ 1 := constantI S_ 1 1#1
  let main_v10 : IVec S_ 1 := (fun x v => Host.reduce IntOp.andi x v reducesTo_S16777216_S_d0 h_S_) main_v9 main_c_3
  let main_v11 : IVec S_ 1 := andi main_v7 main_v10
  main_v11
-- ==== Kernel.lean ====
abbrev S16777216 : Shape := ⟨1, ![16777216]⟩
abbrev S131072x128 : Shape := ⟨2, ![131072, 128]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 16
  | .vmem => 6
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S131072x128, .f32⟩
  | .hbm, ⟨3, _⟩ => ⟨S131072x128, .i32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S1x1, .f32⟩
  | .local _ .vmem, ⟨5, _⟩ => ⟨S1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S16777216_S131072x128 : S16777216.ShapeCasts S131072x128
  inb_S1x1_S1x1_0_0 : ∀ a, (![0, 0] : Fin 2 → Nat) a + S1x1.size a ≤ S1x1.size a
  h_S1x1 : 0 < S1x1.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S1x1 : S1x1.ShapeCasts S1x1
  shapeCasts_S1x1_S_ : S1x1.ShapeCasts S_
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .i32 = 32 ∨ (Rect.block (s := S131072x128) S4096x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩
abbrev S1 : Shape := ⟨1, ![1]⟩

abbrev nBuf : Space → Nat
  | .hbm => 55
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S16777216, .f32⟩
  | .hbm, ⟨3, _⟩ => ⟨S16777216, .f32⟩
  | .hbm, ⟨4, _⟩ => ⟨S_, .f32⟩
  | .hbm, ⟨5, _⟩ => ⟨S16777216, .f32⟩
  | .hbm, ⟨6, _⟩ => ⟨S16777216, .f32⟩
  | .hbm, ⟨7, _⟩ => ⟨S16777216, .f32⟩
  | .hbm, ⟨8, _⟩ => ⟨S16777216, .f32⟩
  | .hbm, ⟨9, _⟩ => ⟨S16777216, .i1⟩
  | .hbm, ⟨10, _⟩ => ⟨S16777216, .f32⟩
  | .hbm, ⟨11, _⟩ => ⟨S16777216, .f32⟩
  | .hbm, ⟨12, _⟩ => ⟨S16777216, .f32⟩
  | .hbm, ⟨13, _⟩ => ⟨S16777216, .f32⟩
  | .hbm, ⟨14, _⟩ => ⟨S16777216, .f32⟩
  | .hbm, ⟨15, _⟩ => ⟨S16777216, .f32⟩
  | .hbm, ⟨16, _⟩ => ⟨S16777216, .f32⟩
  | .hbm, ⟨17, _⟩ => ⟨S16777216, .f32⟩
  | .hbm, ⟨18, _⟩ => ⟨S16777216, .f32⟩
  | .hbm, ⟨19, _⟩ => ⟨S16777216, .f32⟩
  | .hbm, ⟨20, _⟩ => ⟨S_, .f32⟩
  | .hbm, ⟨21, _⟩ => ⟨S16777216, .f32⟩
  | .hbm, ⟨22, _⟩ => ⟨S16777216, .f32⟩
  | .hbm, ⟨23, _⟩ => ⟨S16777216, .f32⟩
  | .hbm, ⟨24, _⟩ => ⟨S16777216, .f32⟩
  | .hbm, ⟨25, _⟩ => ⟨S_, .f32⟩
  | .hbm, ⟨26, _⟩ => ⟨S16777216, .f32⟩
  | .hbm, ⟨27, _⟩ => ⟨S16777216, .f32⟩
  | .hbm, ⟨28, _⟩ => ⟨S16777216, .f32⟩
  | .hbm, ⟨29, _⟩ => ⟨S16777216, .f32⟩
  | .hbm, ⟨30, _⟩ => ⟨S16777216, .i1⟩
  | .hbm, ⟨31, _⟩ => ⟨S16777216, .f32⟩
  | .hbm, ⟨32, _⟩ => ⟨S16777216, .f32⟩
  | .hbm, ⟨33, _⟩ => ⟨S16777216, .f32⟩
  | .hbm, ⟨34, _⟩ => ⟨S16777216, .f32⟩
  | .hbm, ⟨35, _⟩ => ⟨S16777216, .f32⟩
  | .hbm, ⟨36, _⟩ => ⟨S16777216, .f32⟩
  | .hbm, ⟨37, _⟩ => ⟨S16777216, .f32⟩
  | .hbm, ⟨38, _⟩ => ⟨S16777216, .f32⟩
  | .hbm, ⟨39, _⟩ => ⟨S16777216, .f32⟩
  | .hbm, ⟨40, _⟩ => ⟨S16777216, .f32⟩
  | .hbm, ⟨41, _⟩ => ⟨S16777216, .f32⟩
  | .hbm, ⟨42, _⟩ => ⟨S_, .i32⟩
  | .hbm, ⟨43, _⟩ => ⟨S_, .i32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_v8 : Ref sig .tc := ⟨.hbm, 13, rfl⟩
abbrev main_call0_call0_v9 : Ref sig .tc := ⟨.hbm, 14, rfl⟩
abbrev main_call0_call0_v10 : Ref sig .tc := ⟨.hbm, 15, rfl⟩
abbrev main_call0_call0_v11 : Ref sig .tc := ⟨.hbm, 16, rfl⟩
abbrev main_call0_v1 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_call1_v0 : Ref sig .tc := ⟨.hbm, 24, rfl⟩
abbrev main_call1_call0_cst : Ref sig .tc := ⟨.hbm, 25, rfl⟩
abbrev main_call1_call0_v0 : Ref sig .tc := ⟨.hbm, 26, rfl⟩
abbrev main_call1_call0_v1 : Ref sig .tc := ⟨.hbm, 27, rfl⟩
abbrev main_call1_call0_v2 : Ref sig .tc := ⟨.hbm, 28, rfl⟩
abbrev main_call1_call0_v3 : Ref sig .tc := ⟨.hbm, 29, rfl⟩
abbrev main_call1_call0_v4 : Ref sig .tc := ⟨.hbm, 30, rfl⟩
abbrev main_call1_call0_v5 : Ref sig .tc := ⟨.hbm, 31, rfl⟩
abbrev main_call1_call0_v6 : Ref sig .tc := ⟨.hbm, 32, rfl⟩
abbrev main_call1_call0_v7 : Ref sig .tc := ⟨.hbm, 33, rfl⟩
abbrev main_call1_call0_v8 : Ref sig .tc := ⟨.hbm, 34, rfl⟩
abbrev main_call1_call0_v9 : Ref sig .tc := ⟨.hbm, 35, rfl⟩
abbrev main_call1_call0_v10 : Ref sig .tc := ⟨.hbm, 36, rfl⟩
abbrev main_call1_call0_v11 : Ref sig .tc := ⟨.hbm, 37, rfl⟩
abbrev main_call1_v1 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_c : Ref sig .tc := ⟨.hbm, 42, rfl⟩
abbrev main_v9 : Ref sig .tc := ⟨.hbm, 43, rfl⟩
abbrev main_v10 : Ref sig .tc := ⟨.hbm, 44, rfl⟩
abbrev main_cst_0 : Ref sig .tc := ⟨.hbm, 45, rfl⟩
abbrev main_v11 : Ref sig .tc := ⟨.hbm, 46, rfl⟩
abbrev main_cst_1 : Ref sig .tc := ⟨.hbm, 47, rfl⟩
abbrev main_v12 : Ref sig .tc := ⟨.hbm, 48, rfl⟩
abbrev main_v13 : Ref sig .tc := ⟨.hbm, 49, rfl⟩
abbrev main_cst_2 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel
  shapeCasts_S_S1 : S_.ShapeCasts S1

variable [Facts₀]

class Facts : Prop extends Facts₀ where

variable [Facts]
-- ==== Proof.RefRun.lean ====
/-
  The reference program's run, read back. @main and the three functions it calls (two log-sigmoids, each through
  one softplus) are one straight line of 53 host operations once the calls are unfolded; every weakly fair
  execution of it terminates with the result buffer at the operations' composed pure term of the two argument
  arrays, and the arguments unchanged.
-/
import proofs.«175003_j19172734010147_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 53 operations in order, the calls unfolded: the labels' conversion; log-sigmoid of the scores (a negation,
    softplus's fourteen, a negation) into the first call's buffers; the product, the constant one, one minus the label,
    the scores negated; log-sigmoid of those into the second call's buffers; the second product and the sum of the two;
    then the scalar tail: the integer sum of the labels, the float sum of the terms, and the quotient, reshaped. -/
abbrev ops : List (HloOp τ sig (Elt F)) :=
  [ unary main_arg1 main_v0 (sitofp .f32 : (⟨S16777216, .i32⟩ : BufTy).Contents (Elt F) → (⟨S16777216, .f32⟩ : BufTy).Contents (Elt F)),
    TRef.unary (.of main_arg0) main_call0.v0 Host.negf,
    TRef.nullary main_call0.call0.cst (constant S_ .f32 0x00000000#32),
    TRef.unary main_call0.call0.cst main_call0.call0.v0 (broadcastInDim S16777216 ![] bcast_S_S16777216),
    TRef.binary main_call0.v0 main_call0.call0.v0 main_call0.call0.v1 maximumf,
    TRef.unary main_call0.call0.cst main_call0.call0.v2 (broadcastInDim S16777216 ![] bcast_S_S16777216),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S16777216 ![] bcast_S_S16777216),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    binary main_v0 main_v1 main_v2 (mulf : (⟨S16777216, .f32⟩ : BufTy).Contents (Elt F) → (⟨S16777216, .f32⟩ : BufTy).Contents (Elt F) → (⟨S16777216, .f32⟩ : BufTy).Contents (Elt F)),
    nullary main_cst (constant S_ .f32 0x3F800000#32),
    unary main_cst main_v3 (broadcastInDim S16777216 ![] bcast_S_S16777216 : (⟨S_, .f32⟩ : BufTy).Contents (Elt F) → (⟨S16777216, .f32⟩ : BufTy).Contents (Elt F)),
    binary main_v3 main_v0 main_v4 (subf : (⟨S16777216, .f32⟩ : BufTy).Contents (Elt F) → (⟨S16777216, .f32⟩ : BufTy).Contents (Elt F) → (⟨S16777216, .f32⟩ : BufTy).Contents (Elt F)),
    unary main_arg0 main_v5 (Host.negf : (⟨S16777216, .f32⟩ : BufTy).Contents (Elt F) → (⟨S16777216, .f32⟩ : BufTy).Contents (Elt F)),
    TRef.unary (.of main_v5) main_call1.v0 Host.negf,
    TRef.nullary main_call1.call0.cst (constant S_ .f32 0x00000000#32),
    TRef.unary main_call1.call0.cst main_call1.call0.v0 (broadcastInDim S16777216 ![] bcast_S_S16777216),
    TRef.binary main_call1.v0 main_call1.call0.v0 main_call1.call0.v1 maximumf,
    TRef.unary main_call1.call0.cst main_call1.call0.v2 (broadcastInDim S16777216 ![] bcast_S_S16777216),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S16777216 ![] bcast_S_S16777216),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    binary main_v4 main_v6 main_v7 (mulf : (⟨S16777216, .f32⟩ : BufTy).Contents (Elt F) → (⟨S16777216, .f32⟩ : BufTy).Contents (Elt F) → (⟨S16777216, .f32⟩ : BufTy).Contents (Elt F)),
    binary main_v2 main_v7 main_v8 (addf : (⟨S16777216, .f32⟩ : BufTy).Contents (Elt F) → (⟨S16777216, .f32⟩ : BufTy).Contents (Elt F) → (⟨S16777216, .f32⟩ : BufTy).Contents (Elt F)),
    nullary main_c (constantI S_ 32 0#32),
    binary main_arg1 main_c main_v9 ((fun x v => Host.reduce IntOp.addi x v reducesTo_S16777216_S_d0 h_S_) : (⟨S16777216, .i32⟩ : BufTy).Contents (Elt F) → (⟨S_, .i32⟩ : BufTy).Contents (Elt F) → (⟨S_, .i32⟩ : BufTy).Contents (Elt F)),
    unary main_v9 main_v10 (sitofp .f32 : (⟨S_, .i32⟩ : BufTy).Contents (Elt F) → (⟨S_, .f32⟩ : BufTy).Contents (Elt F)),
    nullary main_cst_0 (constant S_ .f32 0x4B800000#32),
    binary main_cst_0 main_v10 main_v11 (subf : (⟨S_, .f32⟩ : BufTy).Contents (Elt F) → (⟨S_, .f32⟩ : BufTy).Contents (Elt F) → (⟨S_, .f32⟩ : BufTy).Contents (Elt F)),
    nullary main_cst_1 (constant S_ .f32 0x00000000#32),
    binary main_v8 main_cst_1 main_v12 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    unary main_v12 main_v13 (Host.negf : (⟨S_, .f32⟩ : BufTy).Contents (Elt F) → (⟨S_, .f32⟩ : BufTy).Contents (Elt F)),
    nullary main_cst_2 (constant S_ .f32 0x3F800000#32),
    binary main_cst_2 main_v11 main_v14 (addf : (⟨S_, .f32⟩ : BufTy).Contents (Elt F) → (⟨S_, .f32⟩ : BufTy).Contents (Elt F) → (⟨S_, .f32⟩ : BufTy).Contents (Elt F)),
    binary main_v14 main_v10 main_v15 (mulf : (⟨S_, .f32⟩ : BufTy).Contents (Elt F) → (⟨S_, .f32⟩ : BufTy).Contents (Elt F) → (⟨S_, .f32⟩ : BufTy).Contents (Elt F)),
    binary main_v13 main_v15 main_v16 (Host.divf : (⟨S_, .f32⟩ : BufTy).Contents (Elt F) → (⟨S_, .f32⟩ : BufTy).Contents (Elt F) → (⟨S_, .f32⟩ : BufTy).Contents (Elt F)),
    reshape main_v16 main_v17 rfl shapeCasts_S_S1 ]

-- fifty-three binds re-associated: the rewrite under the chain recurses once per statement
set_option maxRecDepth 4096 in
/-- @main is that straight line: the functions' definitions unfolded at their calls, both sides are one chain of
    steps once sequencing is reassociated. -/
theorem main_eq (c : Dev nD) : main (F := F) c = seq ops := by
  simp only [main, fn_log_sigmoid.body, fn_log_sigmoid_0.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., nullary_bufs_sub .., unary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., binary_bufs_sub .., nullary_bufs_sub .., binary_bufs_sub .., unary_bufs_sub .., nullary_bufs_sub .., binary_bufs_sub .., nullary_bufs_sub .., binary_bufs_sub .., unary_bufs_sub .., nullary_bufs_sub .., binary_bufs_sub .., binary_bufs_sub .., binary_bufs_sub .., reshape_bufs_sub ..⟩

/-- The printed softplus at a whole array: `max(x, 0) + log1p(exp(−|x − 0|))`, guarded by `x − 0 ≠ x − 0`
    (under which it answers `x + 0`). -/
def softplusV (x : FVec F S16777216 .f32) : FVec F S16777216 .f32 :=
  let cst : FVec F S_ .f32 := constant S_ .f32 0x00000000#32
  let v0 : FVec F S16777216 .f32 := broadcastInDim S16777216 ![] bcast_S_S16777216 cst
  let v1 := maximumf x v0
  let v2 : FVec F S16777216 .f32 := broadcastInDim S16777216 ![] bcast_S_S16777216 cst
  let v3 := subf x v2
  let v4 := cmpf .une v3 v3
  let v5 : FVec F S16777216 .f32 := broadcastInDim S16777216 ![] bcast_S_S16777216 cst
  let v6 := addf x v5
  let v7 := Host.absf v3
  let v8 := Host.negf v7
  let v9 := Host.exp v8
  let v10 := Host.log1p v9
  let v11 := addf v1 v10
  select v4 v6 v11

/-- The printed log-sigmoid at a whole array: `−softplus(−x)`. -/
def logSigV (x : FVec F S16777216 .f32) : FVec F S16777216 .f32 :=
  let v0 := Host.negf x
  let v1 := softplusV v0
  Host.negf v1

/-- The reference's result as one pure function of its two argument arrays: the printed operations composed. -/
def refOut (p : FVec F S16777216 .f32) (lab : IVec S16777216 32) : FVec F S1 .f32 :=
  let v0 : FVec F S16777216 .f32 := sitofp .f32 lab
  let v1 := logSigV p
  let v2 := mulf v0 v1
  let cst : FVec F S_ .f32 := constant S_ .f32 0x3F800000#32
  let v3 : FVec F S16777216 .f32 := broadcastInDim S16777216 ![] bcast_S_S16777216 cst
  let v4 := subf v3 v0
  let v5 := Host.negf p
  let v6 := logSigV v5
  let v7 := mulf v4 v6
  let v8 := addf v2 v7
  let c : IVec S_ 32 := constantI S_ 32 0#32
  let v9 : IVec S_ 32 := Host.reduce IntOp.addi lab c reducesTo_S16777216_S_d0 h_S_
  let v10 : FVec F S_ .f32 := sitofp .f32 v9
  let cst_0 : FVec F S_ .f32 := constant S_ .f32 0x4B800000#32
  let v11 := subf cst_0 v10
  let cst_1 : FVec F S_ .f32 := constant S_ .f32 0x00000000#32
  let v12 : FVec F S_ .f32 := Host.reduceAdd v8 cst_1 reducesTo_S16777216_S_d0 h_S_
  let v13 := Host.negf v12
  let cst_2 : FVec F S_ .f32 := constant S_ .f32 0x3F800000#32
  let v14 := addf cst_2 v11
  let v15 := mulf v14 v10
  let v16 := Host.divf v13 v15
  shapeCast S1 v16 shapeCasts_S_S1

attribute [local irreducible] Host.reduce Host.reduceAdd in
set_option maxRecDepth 8192 in
/-- The fold of the 53 operations at the result buffer is `refOut` of the contents of the two argument buffers:
    each operation's result read at its own buffer is its function's value, at any other buffer what was there; the
    two reductions are kept folded meanwhile (the equation never looks inside them). -/
theorem out_eq (V : Valuation τ sig (Elt F)) :
    after ops V (Proc.devRef .tc main_v17)
      = refOut (V (Proc.devRef .tc main_arg0)) (V (Proc.devRef .tc main_arg1)) := by
  after_results_simp
  rfl

set_option maxRecDepth 8192 in
theorem arg0_eq (V : Valuation τ sig (Elt F)) :
    after ops V (Proc.devRef .tc main_arg0) = V (Proc.devRef .tc main_arg0) := by
  after_results_simp

set_option maxRecDepth 8192 in
theorem arg1_eq (V : Valuation τ sig (Elt F)) :
    after ops V (Proc.devRef .tc main_arg1) = V (Proc.devRef .tc main_arg1) := by
  after_results_simp

/-- On every device, for any float values, from any memory with zero counters: every weakly fair execution of
    @main terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v17).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.Spec.lean ====
/-
  The specification both programs are compared against, over the extended reals.

  One example with score `p` and integer label `l` contributes
      term p l = l · logσ(p) + (1 − l) · logσ(−p),     logσ(x) = −softplus(−x),
      softplus(y) = max(y, 0) + log(1 + e^(−|y|)),     |y| written max(y, −y),
  the label read as a signed integer. With `S = ∑ term` and `P = ∑ l` over all 2^24 examples the loss is
      loss S P = (−S) / ((1 + (2^24 − P)) · P).
  The constants 1 and 2^24 are kept as the float words both programs carry (the same word on both sides is
  never evaluated). `flat t r l` is the position of lane `l` of row `r` of row block `t` in the flat
  array: (t · 4096 + r) · 128 + l.
-/
import Idealize.ShloMosaic.PureOps.Ideal
import Idealize.ShloMosaic.PureOps.Ideal.Laws
import Idealize.ShloMosaic.Lib.ValueIdx

noncomputable section

namespace Cert.Bce

open Idealize.ShloMosaic

/-- The stable softplus: `max(y, 0) + log(1 + e^(−|y|))`. -/
def softplus (y : EReal) : EReal := max y 0 + Ideal.log1p (Ideal.exp (-(max y (-y))))

/-- `log σ(x) = −softplus(−x)`. -/
def logSigmoid (x : EReal) : EReal := -(softplus (-x))

/-- A label word read as a signed integer. -/
def lbl (l : BitVec 32) : EReal := ((l.toInt : ℝ) : EReal)

/-- The float word of 1. -/
def one : EReal := Ideal.ofBits .f32 0x3F800000#32

/-- The float word of 2^24, the number of examples. -/
def count : EReal := Ideal.ofBits .f32 0x4B800000#32

/-- One example's log-likelihood. -/
def term (p : EReal) (l : BitVec 32) : EReal := lbl l * logSigmoid p + (one - lbl l) * logSigmoid (-p)

/-- The loss from the total log-likelihood and the number of positive examples. -/
def loss (sll pos : EReal) : EReal := Ideal.div (-sll) ((one + (count - pos)) * pos)

/-- The total log-likelihood of a flat array of scores and labels. -/
def sumTerm (p : Fin 16777216 → EReal) (l : Fin 16777216 → BitVec 32) : EReal := ∑ k, term (p k) (l k)

/-- The number of positive examples: the labels summed as extended reals. -/
def sumLbl (l : Fin 16777216 → BitVec 32) : EReal := ∑ k, lbl (l k)

/-- The loss of a flat array of scores and labels. -/
def result (p : Fin 16777216 → EReal) (l : Fin 16777216 → BitVec 32) : EReal := loss (sumTerm p l) (sumLbl l)

/-- Every label is 0 or 1. -/
def Binary (l : Fin 16777216 → BitVec 32) : Prop := ∀ k, 0 ≤ (l k).toInt ∧ (l k).toInt ≤ 1

/-- Lane `l` of row `r` of row block `t`, in the flat array. -/
def flat (t : Fin 32) (r : Fin 4096) (l : Fin 128) : Fin 16777216 :=
  ⟨(t.val * 4096 + r.val) * 128 + l.val, by have := t.isLt; have := r.isLt; have := l.isLt; omega⟩

end Cert.Bce

end
-- ==== Proof.RefValue.lean ====
/-
  At the extended reals the reference's result is the specification: element by element both printed
  log-sigmoids are `log σ`, the two products and their sum are one example's log-likelihood, the float host
  sum is the exact sum over all examples, the integer host sum of the labels is (by hypothesis) their true
  sum, and the scalar tail is the loss formula.
-/
import proofs.«175003_j19172734010147_2_alg».proof.Proof.RefRun
import proofs.«175003_j19172734010147_2_alg».proof.Proof.Spec
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Idealize.ShloMosaic

/-- One element of the printed softplus. On the extended reals `x − 0 ≠ x − 0` never holds, so the guard's
    select takes its third operand, and `x − 0 = x`. -/
theorem softplus_elem (x : EReal) :
    Scalar.select (Ideal.cmp .une (x - 0) (x - 0)) (x + 0)
      (max x 0 + Ideal.log1p (Ideal.exp (-(max (x - 0) (-(x - 0)))))) = Cert.Bce.softplus x := by
  have hc : Ideal.cmp .une (x - 0) (x - 0) = 0#1 := by simp [Ideal.cmp]
  rw [hc, sub_zero]
  simp only [Scalar.select]
  rfl

/-- The printed softplus, read at an index. -/
theorem softplusV_apply (x : FVec Ideal S16777216 .f32) (i : S16777216.Idx) :
    RefRun.softplusV (F := Ideal) x i = Cert.Bce.softplus (x i) := by
  unfold RefRun.softplusV
  simp only [select, cmpf, addf, subf, maximumf, Host.absf, Host.negf, Host.exp, Host.log1p, broadcastInDim, constant,
    Ideal.ofBits_def, Ideal.ofBits_zero_f32, Ideal.cmpf_def, Ideal.addf_def, Ideal.subf_def, Ideal.maximumf_def,
    Ideal.hostNegf_def, Ideal.hostAbsf_def, Ideal.negf_def, Ideal.absf_def, Ideal.hostUnary_exp_def, Ideal.hostUnary_log1p_def]
  exact softplus_elem (x i)

/-- The printed log-sigmoid, read at an index. -/
theorem logSigV_apply (x : FVec Ideal S16777216 .f32) (i : S16777216.Idx) :
    RefRun.logSigV (F := Ideal) x i = Cert.Bce.logSigmoid (x i) := by
  unfold RefRun.logSigV
  simp only [Host.negf, Ideal.hostNegf_def, Ideal.negf_def, softplusV_apply]
  rfl

/-- A signed integer converted to a float is, on the extended reals, that integer. -/
theorem sitofp_lbl (b : BitVec 32) : FloatOps.sitofp (F := Ideal) .f32 b = Cert.Bce.lbl b := rfl

/-- The flat array's indices are its positions. -/
def ixEquiv : Fin 16777216 ≃ S16777216.Idx where
  toFun := ValueIdx.ix1
  invFun j := j 0
  left_inv _ := rfl
  right_inv j := (ValueIdx.eq_ix1 j).symm

/-- A sum over the flat array's indices is the sum over its positions. -/
theorem sum_idx (x : S16777216.Idx → EReal) : ∑ i : S16777216.Idx, x i = ∑ k : Fin 16777216, x (ValueIdx.ix1 k) :=
  (Equiv.sum_comp ixEquiv x).symm

/-- A fold of a commutative, associative operation over the flat array's indices is the fold over its positions. -/
theorem fold_idx {α : Type} (f : α → α → α) [Std.Commutative f] [Std.Associative f] (b : α) (x : S16777216.Idx → α) :
    (Finset.univ : Finset S16777216.Idx).fold f b x
      = (Finset.univ : Finset (Fin 16777216)).fold f b (fun k => x (ValueIdx.ix1 k)) := by
  rw [← Finset.map_univ_equiv ixEquiv, Finset.fold_map]
  rfl

/-- The float host sum into the rank-0 shape, on the extended reals: the initial value plus the exact sum over all
    positions. -/
theorem hostSum_eq (x : FVec Ideal S16777216 .f32) (init : FVec Ideal S_ .f32) (j : S_.Idx) :
    Host.reduceAdd (F := Ideal) x init reducesTo_S16777216_S_d0 h_S_ j
      = init (Shape.Idx.first h_S_) + ∑ k : Fin 16777216, x (ValueIdx.ix1 k) := by
  unfold Host.reduceAdd
  rw [Ideal.hostReduceAdd_def, Ideal.hostReduceAdd_total _ (fun b => b.elim0), sum_idx]

/-- The integer host sum into the rank-0 shape: the wrapping sum over all positions, from the initial value. -/
theorem hostISum_eq (lab : IVec S16777216 32) (init : IVec S_ 32) (j : S_.Idx) :
    Host.reduce IntOp.addi lab init reducesTo_S16777216_S_d0 h_S_ j
      = (Finset.univ : Finset (Fin 16777216)).fold IntOp.addi (init (Shape.Idx.first h_S_)) (fun k => lab (ValueIdx.ix1 k)) := by
  rw [Host.reduce_eq_fold, Finset.filter_true_of_mem (fun i _ => funext fun b => b.elim0), fold_idx]

/-- One example's contribution, as the printed operations compute it: the two products and their sum. -/
theorem term_apply (p : FVec Ideal S16777216 .f32) (lab : IVec S16777216 32) (j : S16777216.Idx) :
    addf (F := Ideal) (mulf (sitofp .f32 lab) (RefRun.logSigV p))
      (mulf (subf (broadcastInDim S16777216 ![] bcast_S_S16777216 (constant S_ .f32 0x3F800000#32)) (sitofp .f32 lab))
        (RefRun.logSigV (Host.negf p))) j = Cert.Bce.term (p j) (lab j) := by
  simp only [addf, mulf, subf, sitofp, broadcastInDim, constant, Host.negf, Ideal.ofBits_def, Ideal.addf_def, Ideal.subf_def,
    Ideal.mulf_def, Ideal.hostNegf_def, Ideal.negf_def, logSigV_apply, sitofp_lbl]
  rfl

/-- The scalar tail, from any total `S` and any integer count `R`: the loss formula. -/
theorem tail_apply (S : FVec Ideal S_ .f32) (R : IVec S_ 32) (j : S_.Idx) :
    Host.divf (F := Ideal) (Host.negf S)
      (mulf (addf (constant S_ .f32 0x3F800000#32) (subf (constant S_ .f32 0x4B800000#32) (sitofp .f32 R))) (sitofp .f32 R)) j
      = Cert.Bce.loss (S j) (Cert.Bce.lbl (R j)) := by
  simp only [Host.divf, Host.negf, addf, mulf, subf, sitofp, constant, Ideal.ofBits_def, Ideal.hostDivf_def, Ideal.addf_def,
    Ideal.subf_def, Ideal.mulf_def, Ideal.hostNegf_def, Ideal.negf_def, sitofp_lbl]
  rfl

/-- At the extended reals the reference's result is the specification's loss of the flat arrays, given that the
    wrapping 32-bit sum of the labels, read signed, is their true sum. -/
theorem refOut_eq (p : FVec Ideal S16777216 .f32) (lab : IVec S16777216 32)
    (hpos : Cert.Bce.lbl ((Finset.univ : Finset (Fin 16777216)).fold IntOp.addi 0#32 (fun k => lab (ValueIdx.ix1 k))) = Cert.Bce.sumLbl (fun k => lab (ValueIdx.ix1 k))) :
    RefRun.refOut (F := Ideal) p lab = fun _ => Cert.Bce.result (fun k => p (ValueIdx.ix1 k)) (fun k => lab (ValueIdx.ix1 k)) := by
  funext i
  unfold RefRun.refOut
  simp only [shapeCast]
  rw [tail_apply, hostSum_eq, hostISum_eq]
  have h0 : (constant S_ .f32 0x00000000#32 : FVec Ideal S_ .f32) (Shape.Idx.first h_S_) = 0 := by
    simp only [constant, Ideal.ofBits_def, Ideal.ofBits_zero_f32]
  have hc : (constantI S_ 32 0#32) (Shape.Idx.first h_S_) = 0#32 := rfl
  rw [h0, hc, zero_add, hpos, Finset.sum_congr rfl (fun k _ => term_apply p lab (ValueIdx.ix1 k))]
  rfl

end Cert.ReferenceIdeal.RefValue

end
-- ==== Proof.KernelPieces.lean ====
/-
  What each control case of the kernel body leaves in its two accumulator blocks, as pure terms.

  The body has two cases. At the first grid point it first stores a zero into each accumulator, reads it back,
  and stores accumulator + block total; at every later point it reads what the point before left and stores
  that + block total. Each accumulator is one 1×1 block written by covering stores, so what it ends holding is
  the last store's value: the block-total payload applied to the point's input blocks and to either the zero
  just stored (first point) or the carried value (later points).
-/
import proofs.«175003_j19172734010147_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

theorem out_B_2 (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (hc : ¬cond0_0 i)
    (x0 : Vec F S4096x128 .f32) (x1 : Vec F S4096x128 .i32) (xo2 xo3 : Vec F S1x1 .f32) :
    out0_B_2 c i a1 h1 a2 h2 a3 h3 a4 h4 hc x0 x1 xo2 xo3
      = k0_pay1 (k0_pay7 x0 x1) (k0_pay8 x1) (k0_pay10 x0) (k0_pay12 x0) (k0_pay13 x0) (k0_pay14 x0) xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread, View.ld_unit_zero (S := S4096x128) hz,
    View.ld_unit_zero (S := S1x1) hz]

theorem out_B_3 (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (hc : ¬cond0_0 i)
    (x0 : Vec F S4096x128 .f32) (x1 : Vec F S4096x128 .i32) (xo2 xo3 : Vec F S1x1 .f32) :
    out0_B_3 c i a1 h1 a2 h2 a3 h3 a4 h4 hc x0 x1 xo2 xo3 = k0_pay2 (k0_pay6 x1) xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h4.read_unread, View.ld_unit_zero (S := S4096x128) hz,
    View.ld_unit_zero (S := S1x1) hz]

theorem out_A_2 (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (hc : cond0_0 i)
    (x0 : Vec F S4096x128 .f32) (x1 : Vec F S4096x128 .i32) :
    out0_A_2 c i a1 h1 a2 h2 a3 h3 a4 h4 hc x0 x1
      = k0_pay1 (k0_pay7 x0 x1) (k0_pay8 x1) (k0_pay10 x0) (k0_pay12 x0) (k0_pay13 x0) (k0_pay14 x0) (k0_pay3 (F := F)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x1) hz]
  simp only [View.readCov_unit_zero (S := S1x1) _ hz, View.readAt_eq_ld, h1.read_unread, h2.read_unread,
    View.ld_unit_zero (S := S4096x128) hz, View.ld_unit_zero (S := S1x1) hz]

theorem out_A_3 (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (hc : cond0_0 i)
    (x0 : Vec F S4096x128 .f32) (x1 : Vec F S4096x128 .i32) :
    out0_A_3 c i a1 h1 a2 h2 a3 h3 a4 h4 hc x0 x1 = k0_pay2 (k0_pay6 x1) (k0_pay4 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz]
  simp only [View.readCov_unit_zero (S := S1x1) _ hz, View.readAt_eq_ld, h1.read_unread, h2.read_unread,
    View.ld_unit_zero (S := S4096x128) hz, View.ld_unit_zero (S := S1x1) hz]

end Cert.KernelIdeal.Pieces
end
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.KernelPayload.lean ====
/-
  The kernel body's two block-total payloads read at the extended reals.

  A block is 4096 rows of 128 lanes. The body sums each row's lanes, views the 4096 row totals as a column, sums
  the column, and adds the result to the accumulator's previous value; it does this once for the per-example
  log-likelihood and once for the labels converted to floats. On the extended reals each of the two is the
  previous value plus a double sum over rows and lanes, and the per-example term is the specification's: the
  kernel's `0 − x` is `−x`, its `x − 0` and `x + 0` are `x`, and its guard `x ≠ x` never holds, so the guarded
  select is always the stable softplus.
-/
import proofs.«175003_j19172734010147_2_alg».proof.Proof.Gen.KernelIdeal.Skeleton
import proofs.«175003_j19172734010147_2_alg».proof.Proof.Spec
import proofs.«175003_j19172734010147_2_alg».proof.Proof.LibColumn
import Idealize.ShloMosaic.PureOps.Ideal.Laws
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.KernelIdeal.Payload

open Cert.KernelIdeal Cert.KernelIdeal.Gen

/-- The lanes of a 4096×128 block summed, then the 4096 row totals summed: at the one index of the 1×1 result, the
    double sum over rows and lanes. -/
theorem rows_lanes (v : FVec Ideal S4096x128 .f32) (h1 : S4096x128.Reduces [1] S4096) (hφ : FKind.Formats .f32)
    (hacc : (0x00000000#32 : BitVec 32) = FKind.add.neutral .f32 hφ) (hc1 : S4096.ShapeCasts S4096x1)
    (h0 : S4096x1.Reduces [0] S1) (hc0 : S1.ShapeCasts S1x1) (j : S1x1.Idx) :
    shapeCast S1x1 (multiReduction .add [0] S1 (shapeCast S4096x1 (multiReduction .add [1] S4096 v 0x00000000#32 h1 hφ hacc) hc1)
      0x00000000#32 h0 hφ hacc) hc0 j = ∑ r : Fin 4096, ∑ l : Fin 128, v (ix2 r l) := by
  obtain ⟨u, w, rfl⟩ : ∃ (u : Fin 1) (w : Fin 1), j = ix2 u w := ⟨j 0, j 1, eq_ix2 j⟩
  refine (Cert.LibColumn.shapeCast_a_a1_apply _ hc0 u w).trans ?_
  refine (Ideal.multiReduction_add_single _ 0x00000000#32 h0 hφ hacc (ix1 u)).trans ?_
  refine Finset.sum_congr rfl fun r _ => ?_
  have e : h0.lift (ix1 u) r = ix2 r (0 : Fin 1) := by
    funext a; apply Fin.ext
    match a with
    | ⟨0, _⟩ => rfl
    | ⟨1, _⟩ => show (u : Nat) = 0; omega
  rw [e]
  refine (Cert.LibColumn.shapeCast_a_a1_apply _ hc1 r (0 : Fin 1)).trans ?_
  refine (Ideal.multiReduction_add_single v 0x00000000#32 h1 hφ hacc (ix1 r)).trans ?_
  refine Finset.sum_congr rfl fun l _ => ?_
  have e2 : h1.lift (ix1 r) l = ix2 r l := by
    funext a; apply Fin.ext
    match a with
    | ⟨0, _⟩ => rfl
    | ⟨1, _⟩ => rfl
  rw [e2]
  rfl

/-- The kernel's softplus chain at one element, with its dead not-equal-to-itself guard: the stable softplus. -/
theorem softplus_elem (y : EReal) :
    Scalar.select (FloatOps.cmpf (F := Ideal) (φ := .f32) CmpFPredicate.one
        (FloatOps.subf (F := Ideal) (φ := .f32) y (FloatOps.ofBits FTy.f32 0#32)) (FloatOps.subf (F := Ideal) (φ := .f32) y (FloatOps.ofBits FTy.f32 0#32)))
      (FloatOps.addf (F := Ideal) (φ := .f32) y (FloatOps.ofBits FTy.f32 0#32))
      (FloatOps.addf (F := Ideal) (φ := .f32) (FloatOps.maximumf (F := Ideal) (φ := .f32) y (FloatOps.ofBits FTy.f32 0#32))
        (FloatOps.log1p (F := Ideal) (φ := .f32) (FloatOps.exp (F := Ideal) (φ := .f32) (FloatOps.subf (F := Ideal) (φ := .f32) (FloatOps.ofBits FTy.f32 0#32)
          (FloatOps.absf (F := Ideal) (φ := .f32) (FloatOps.subf (F := Ideal) (φ := .f32) y (FloatOps.ofBits FTy.f32 0#32)))))))
      = Cert.Bce.softplus y := by
  have hc : ∀ x : EReal, Ideal.cmp CmpFPredicate.one x x = 0#1 := fun x => by simp [Ideal.cmp]
  simp only [Ideal.cmpf_def, hc, Ideal.subf_def, Ideal.addf_def, Ideal.maximumf_def, Ideal.log1p_def, Ideal.exp_def,
    Ideal.absf_def, Ideal.ofBits_def, Ideal.ofBits_zero_f32, sub_zero, zero_sub, add_zero]
  rfl

/-- One example's log-likelihood as the kernel body computes it: `l · (0 − softplus(0 − p)) + (1 − l) · (0 − softplus(0 − (0 − p)))`. -/
theorem term_elem (p : EReal) (b : BitVec 32) (s1 s2 : EReal) (h1 : s1 = Cert.Bce.softplus (FloatOps.subf (F := Ideal) (φ := .f32) (FloatOps.ofBits FTy.f32 0#32) p))
    (h2 : s2 = Cert.Bce.softplus (FloatOps.subf (F := Ideal) (φ := .f32) (FloatOps.ofBits FTy.f32 0#32) (FloatOps.subf (F := Ideal) (φ := .f32) (FloatOps.ofBits FTy.f32 0#32) p))) :
    FloatOps.addf (F := Ideal) (φ := .f32)
      (FloatOps.mulf (F := Ideal) (φ := .f32) (FloatOps.sitofp (F := Ideal) FTy.f32 b) (FloatOps.subf (F := Ideal) (φ := .f32) (FloatOps.ofBits FTy.f32 0#32) s1))
      (FloatOps.mulf (F := Ideal) (φ := .f32) (FloatOps.subf (F := Ideal) (φ := .f32) (FloatOps.ofBits FTy.f32 1065353216#32) (FloatOps.sitofp (F := Ideal) FTy.f32 b))
        (FloatOps.subf (F := Ideal) (φ := .f32) (FloatOps.ofBits FTy.f32 0#32) s2))
      = Cert.Bce.term p b := by
  subst h1 h2
  simp only [Ideal.subf_def, Ideal.addf_def, Ideal.mulf_def, Ideal.ofBits_def, Ideal.ofBits_zero_f32, zero_sub]
  rfl

/-- The log-likelihood accumulator's new value: the carried value plus the block's total log-likelihood. -/
theorem pay1_apply (x0 : Vec Ideal S4096x128 .f32) (x1 : Vec Ideal S4096x128 .i32) (prev : Vec Ideal S1x1 .f32) (j : S1x1.Idx) :
    k0_pay1 (F := Ideal) (k0_pay7 x0 x1) (k0_pay8 x1) (k0_pay10 x0) (k0_pay12 x0) (k0_pay13 x0) (k0_pay14 x0) prev j
      = prev j + ∑ r : Fin 4096, ∑ l : Fin 128, Cert.Bce.term (x0 (ix2 r l)) (x1 (ix2 r l)) := by
  unfold k0_pay1
  dsimp only
  show (shapeCast S1x1 prev shapeCasts_S1x1_S1x1 j : EReal) + _ = _
  rw [shapeCast_self]
  refine congrArg (fun z => prev j + z) ?_
  refine (rows_lanes _ _ _ _ _ _ _ j).trans ?_
  refine Finset.sum_congr rfl fun r _ => Finset.sum_congr rfl fun l _ => ?_
  unfold k0_pay7 k0_pay8 k0_pay10 k0_pay12 k0_pay13 k0_pay14 k0_pay11 k0_pay9 k0_pay6 k0_pay5
  dsimp only
  simp only [addf, mulf, subf, maximumf, select, cmpf, absf, exp, log1p, broadcast, sitofp, shapeCast_self]
  exact term_elem _ _ _ _ (softplus_elem _) (softplus_elem _)

/-- The label accumulator's new value: the carried value plus the block's number of positive examples. -/
theorem pay2_apply (x1 : Vec Ideal S4096x128 .i32) (prev : Vec Ideal S1x1 .f32) (j : S1x1.Idx) :
    k0_pay2 (F := Ideal) (k0_pay6 x1) prev j = prev j + ∑ r : Fin 4096, ∑ l : Fin 128, Cert.Bce.lbl (x1 (ix2 r l)) := by
  unfold k0_pay2
  dsimp only
  show (shapeCast S1x1 prev shapeCasts_S1x1_S1x1 j : EReal) + _ = _
  rw [shapeCast_self]
  refine congrArg (fun z => prev j + z) ?_
  refine (rows_lanes _ _ _ _ _ _ _ j).trans ?_
  refine Finset.sum_congr rfl fun r _ => Finset.sum_congr rfl fun l _ => ?_
  unfold k0_pay6
  simp only [sitofp, shapeCast_self]
  rfl

/-- The zero both accumulators are reset to at the first grid point. -/
theorem pay3_apply (j : S1x1.Idx) : k0_pay3 (F := Ideal) j = 0 := by
  unfold k0_pay3
  simp only [broadcast]
  exact Ideal.ofBits_zero_f32

theorem pay4_apply (j : S1x1.Idx) : k0_pay4 (F := Ideal) j = 0 := by
  unfold k0_pay4
  simp only [broadcast]
  exact Ideal.ofBits_zero_f32

end Cert.KernelIdeal.Payload
end
-- ==== Proof.Regroup.lean ====
/-
  Regrouping sums.

  Every position k < 2^24 of the flat array is (t · 4096 + r) · 128 + l for exactly one row block t < 32,
  row r < 4096 and lane l < 128: t = k / 524288, r = k / 128 mod 4096, l = k mod 128. So the positions are in
  bijection with the triples, and in any commutative additive monoid a sum over the flat array is the sum
  over row blocks of the sum over rows of the sum over lanes. Only commutativity and associativity of the
  addition are used.

  A running total that starts from 0 + b 0 and then adds b 1, b 2, … in order is the plain sum of the b's.
-/
import proofs.«175003_j19172734010147_2_alg».proof.Proof.Spec
import Mathlib.Algebra.BigOperators.Fin
import Mathlib.Algebra.BigOperators.Group.Finset.Basic
import Mathlib.Data.Fintype.BigOperators

noncomputable section

namespace Cert.Bce

open Idealize.ShloMosaic

/-- The bijection between (row block, row, lane) and the position in the flat array. -/
def flatEquiv : (Fin 32 × Fin 4096 × Fin 128) ≃ Fin 16777216 where
  toFun x := flat x.1 x.2.1 x.2.2
  invFun k :=
    (⟨k.val / 524288, by have := k.isLt; omega⟩,
     ⟨k.val / 128 % 4096, by omega⟩,
     ⟨k.val % 128, by omega⟩)
  left_inv := by
    rintro ⟨t, r, l⟩
    have ht := t.isLt
    have hr := r.isLt
    have hl := l.isLt
    refine Prod.ext (Fin.ext ?_) (Prod.ext (Fin.ext ?_) (Fin.ext ?_))
    · show ((t.val * 4096 + r.val) * 128 + l.val) / 524288 = t.val
      omega
    · show ((t.val * 4096 + r.val) * 128 + l.val) / 128 % 4096 = r.val
      omega
    · show ((t.val * 4096 + r.val) * 128 + l.val) % 128 = l.val
      omega
  right_inv := by
    intro k
    have hk := k.isLt
    refine Fin.ext ?_
    show (k.val / 524288 * 4096 + k.val / 128 % 4096) * 128 + k.val % 128 = k.val
    omega

theorem flatEquiv_apply (t : Fin 32) (r : Fin 4096) (l : Fin 128) : flatEquiv (t, r, l) = flat t r l := rfl

/-- A sum over the flat array, regrouped by row block, row and lane. -/
theorem sum_flat {M : Type*} [AddCommMonoid M] (f : Fin 16777216 → M) :
    ∑ t : Fin 32, ∑ r : Fin 4096, ∑ l : Fin 128, f (flat t r l) = ∑ k : Fin 16777216, f k := by
  rw [← Equiv.sum_comp flatEquiv f, Fintype.sum_prod_type]
  refine Finset.sum_congr rfl fun t _ => ?_
  rw [Fintype.sum_prod_type]
  refine Finset.sum_congr rfl fun r _ => Finset.sum_congr rfl fun l _ => ?_
  rw [flatEquiv_apply]

/-- The running total after point `n`: `0 + b 0`, then `+ b (n + 1)`. -/
def acc (b : ℕ → EReal) : ℕ → EReal
  | 0 => 0 + b 0
  | n + 1 => acc b n + b (n + 1)

/-- The running total is the plain sum. -/
theorem acc_eq_sum (b : ℕ → EReal) (n : ℕ) : acc b n = ∑ t ∈ Finset.range (n + 1), b t := by
  induction n with
  | zero => rw [acc, zero_add, Finset.sum_range_one]
  | succ n ih => rw [acc, ih, Finset.sum_range_succ _ (n + 1)]

/-- The running total over the 32 row blocks. -/
theorem acc_31 (b : Fin 32 → EReal) :
    acc (fun n => if h : n < 32 then b ⟨n, h⟩ else 0) 31 = ∑ t : Fin 32, b t := by
  have h32 : (31 : ℕ) + 1 = 32 := rfl
  rw [acc_eq_sum, h32, Finset.sum_range]
  refine Finset.sum_congr rfl fun t _ => ?_
  rw [dif_pos t.isLt]

end Cert.Bce

end
-- ==== Proof.KernelChain.lean ====
/-
  What the kernel's two accumulators hold after each grid point.

  Block `t` contributes its total log-likelihood and its number of positive examples (double sums over its 4096 rows
  and 128 lanes). At the first point each accumulator is reset to zero and the block's total added; at every later
  point the block's total is added to what the point before left. So after point `n` each accumulator holds the
  running total `(((0 + b 0) + b 1) + …) + b n` of the block totals, by induction on the point.
-/
import proofs.«175003_j19172734010147_2_alg».proof.Proof.Gen.KernelIdeal.Frame
import proofs.«175003_j19172734010147_2_alg».proof.Proof.KernelPieces
import proofs.«175003_j19172734010147_2_alg».proof.Proof.KernelPayload
import proofs.«175003_j19172734010147_2_alg».proof.Proof.Regroup

noncomputable section

open Idealize.ShloMosaic Idealize.ShloMosaic.TcCoe Idealize.SL.Sem Idealize.ShloMosaic.ValueIdx

namespace Cert.KernelIdeal.Chain

open Cert.KernelIdeal Cert.KernelIdeal.Gen

variable (m : (ℓ : Loc nD τ sig) → Buf (Elt Ideal) ℓ)

/-- Block `t`'s total log-likelihood. -/
def blockLL (c : Dev nD) (t : Fin cfg0.N) : EReal :=
  ∑ r : Fin 4096, ∑ l : Fin 128, Cert.Bce.term ((iblk m c 0 t : Vec Ideal S4096x128 .f32) (ix2 r l)) ((iblk m c 1 t : Vec Ideal S4096x128 .i32) (ix2 r l))

/-- Block `t`'s number of positive examples. -/
def blockPos (c : Dev nD) (t : Fin cfg0.N) : EReal :=
  ∑ r : Fin 4096, ∑ l : Fin 128, Cert.Bce.lbl ((iblk m c 1 t : Vec Ideal S4096x128 .i32) (ix2 r l))

/-- The same as sequences over the naturals, zero past the grid. -/
def seqLL (c : Dev nD) (n : ℕ) : EReal := if h : n < cfg0.N then blockLL m c ⟨n, h⟩ else 0
def seqPos (c : Dev nD) (n : ℕ) : EReal := if h : n < cfg0.N then blockPos m c ⟨n, h⟩ else 0

/-- The first point: each accumulator ends at zero plus the block's total. -/
theorem first (c : Dev nD) (t : Fin cfg0.N) (h0 : t.val % 32 = 0) :
    outsAt0 m c t.val t.isLt = ((fun _ => 0 + blockLL m c t : Vec Ideal S1x1 .f32), (fun _ => 0 + blockPos m c t : Vec Ideal S1x1 .f32)) := by
  rw [outsAt0_A m c t h0]
  refine Prod.ext ?_ ?_
  · dsimp only
    refine (Pieces.out_A_2 c (grid0.coords t) (ms0_0 t) (hs0_0 t) (ms0_1 t) (hs0_1 t) (ms0_2 t) (hs0_2 t) (ms0_3 t) (hs0_3 t)
      ((hcond0_0 t).mpr h0) (iblk m c 0 t) (iblk m c 1 t)).trans ?_
    funext j
    refine (Payload.pay1_apply (iblk m c 0 t) (iblk m c 1 t) _ j).trans ?_
    rw [Payload.pay3_apply]
    rfl
  · dsimp only
    refine (Pieces.out_A_3 c (grid0.coords t) (ms0_0 t) (hs0_0 t) (ms0_1 t) (hs0_1 t) (ms0_2 t) (hs0_2 t) (ms0_3 t) (hs0_3 t)
      ((hcond0_0 t).mpr h0) (iblk m c 0 t) (iblk m c 1 t)).trans ?_
    funext j
    refine (Payload.pay2_apply (iblk m c 1 t) _ j).trans ?_
    rw [Payload.pay4_apply]
    rfl

/-- A later point: each accumulator ends at what the point before left plus the block's total. -/
theorem later (c : Dev nD) (t : Fin cfg0.N) (h0 : ¬t.val % 32 = 0) :
    outsAt0 m c t.val t.isLt
      = ((fun j => (outsAt0 m c (t.val - 1) (Nat.lt_of_le_of_lt (Nat.sub_le _ _) t.isLt)).1 j + blockLL m c t : Vec Ideal S1x1 .f32),
         (fun j => (outsAt0 m c (t.val - 1) (Nat.lt_of_le_of_lt (Nat.sub_le _ _) t.isLt)).2 j + blockPos m c t : Vec Ideal S1x1 .f32)) := by
  rw [outsAt0_B m c t h0]
  refine Prod.ext ?_ ?_
  · dsimp only
    refine (Pieces.out_B_2 c (grid0.coords t) (ms0_0 t) (hs0_0 t) (ms0_1 t) (hs0_1 t) (ms0_2 t) (hs0_2 t) (ms0_3 t) (hs0_3 t)
      (fun h => h0 ((hcond0_0 t).mp h)) (iblk m c 0 t) (iblk m c 1 t) _ _).trans ?_
    funext j
    exact Payload.pay1_apply (iblk m c 0 t) (iblk m c 1 t) _ j
  · dsimp only
    refine (Pieces.out_B_3 c (grid0.coords t) (ms0_0 t) (hs0_0 t) (ms0_1 t) (hs0_1 t) (ms0_2 t) (hs0_2 t) (ms0_3 t) (hs0_3 t)
      (fun h => h0 ((hcond0_0 t).mp h)) (iblk m c 0 t) (iblk m c 1 t) _ _).trans ?_
    funext j
    exact Payload.pay2_apply (iblk m c 1 t) _ j

/-- After point `n` the accumulators hold the running totals of the block totals. -/
theorem outsAt_eq (c : Dev nD) : ∀ (n : ℕ) (h : n < cfg0.N),
    outsAt0 m c n h = ((fun _ => Cert.Bce.acc (seqLL m c) n : Vec Ideal S1x1 .f32), (fun _ => Cert.Bce.acc (seqPos m c) n : Vec Ideal S1x1 .f32))
  | 0, h => by
    refine (first m c ⟨0, h⟩ rfl).trans ?_
    simp only [Cert.Bce.acc, seqLL, seqPos, dif_pos h]
  | n + 1, h => by
    have hN : cfg0.N = 32 := N_0
    have hB : ¬(⟨n + 1, h⟩ : Fin cfg0.N).val % 32 = 0 := by dsimp only; omega
    refine (later m c ⟨n + 1, h⟩ hB).trans ?_
    show ((fun j => (outsAt0 m c n _).1 j + _ : Vec Ideal S1x1 .f32), (fun j => (outsAt0 m c n _).2 j + _ : Vec Ideal S1x1 .f32)) = _
    rw [outsAt_eq c n (Nat.lt_of_succ_lt h)]
    simp only [Cert.Bce.acc, seqLL, seqPos, dif_pos h]

end Cert.KernelIdeal.Chain

end
-- ==== Proof.KernelFinal.lean ====
/-
  What the kernel's two result arrays hold after the run.

  Each result array is one 1×1 block whose index never moves; it is written back once, after the last grid point
  (point 31), with what the accumulator holds there: the running total over all 32 blocks. That one block is the whole
  array, so the array ends holding the running total.
-/
import proofs.«175003_j19172734010147_2_alg».proof.Proof.KernelChain
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable (m : (ℓ : Loc nD τ sig) → Buf (Elt Ideal) ℓ)

/-- The last grid point. -/
def tLast : Fin cfg0.N := ⟨31, by rw [show cfg0.N = 32 from N_0]; decide⟩

/-- The total log-likelihood, as contents of the first result array. -/
abbrev totLL (c : Dev nD) : Buf (Elt Ideal) ((c : Thread nD τ).loc main_v2_0) := fun _ => Cert.Bce.acc (Chain.seqLL m c) 31

/-- The number of positive examples, as contents of the second result array. -/
abbrev totPos (c : Dev nD) : Buf (Elt Ideal) ((c : Thread nD τ).loc main_v2_1) := fun _ => Cert.Bce.acc (Chain.seqPos m c) 31

/-- A constant block cut to its array's extent and a constant array read through a block are the same constant. -/
theorem cut_const2 (c : Dev nD) (t : Fin cfg0.N) (A : EReal) :
    (cfg0.win 2).cut (grid0.coords t) (fun _ => A : Vec Ideal S1x1 .f32) = ((cfg0.win 2).blk t).view.read (Elt Ideal) (fun _ => A : Buf (Elt Ideal) ((c : Thread nD τ).loc main_v2_0)) := by
  funext y
  rfl

/-- The same for the second result's window. -/
theorem cut_const3 (c : Dev nD) (t : Fin cfg0.N) (A : EReal) :
    (cfg0.win 3).cut (grid0.coords t) (fun _ => A : Vec Ideal S1x1 .f32) = ((cfg0.win 3).blk t).view.read (Elt Ideal) (fun _ => A : Buf (Elt Ideal) ((c : Thread nD τ).loc main_v2_1)) := by
  funext y
  rfl

/-- The one write-back of the first result, after the last point, writes the running total. -/
theorem flushed2_eq (c : Dev nD) (t : Fin cfg0.N) (hf : (cfg0.win 2).flush t = true) :
    (dats m 0 c).flushed 2 t = ((cfg0.win 2).blk t).view.read (Elt Ideal) (totLL m c) := by
  have hN : cfg0.N = 32 := N_0
  have h31 : t.val = 31 := by have := (flush0_2 t).mp hf; have := t.isLt; omega
  obtain ⟨n, hn⟩ := t
  dsimp only at h31
  subst h31
  show (cfg0.win 2).cut (grid0.coords ⟨31, hn⟩) ((dats m 0 c).after 2 ⟨31, hn⟩) = _
  rw [after0_2]
  show (cfg0.win 2).cut (grid0.coords ⟨31, hn⟩) (outsAt0 m c 31 hn).1 = _
  rw [Chain.outsAt_eq m c 31 hn]
  show (cfg0.win 2).cut (grid0.coords ⟨31, hn⟩) (fun _ => Cert.Bce.acc (Chain.seqLL m c) 31 : Vec Ideal S1x1 .f32)
    = ((cfg0.win 2).blk ⟨31, hn⟩).view.read (Elt Ideal) (fun _ => Cert.Bce.acc (Chain.seqLL m c) 31 : Buf (Elt Ideal) ((c : Thread nD τ).loc main_v2_0))
  generalize Cert.Bce.acc (Chain.seqLL m c) 31 = A
  exact cut_const2 c ⟨31, hn⟩ A

/-- The one write-back of the second result, after the last point, writes the running total. -/
theorem flushed3_eq (c : Dev nD) (t : Fin cfg0.N) (hf : (cfg0.win 3).flush t = true) :
    (dats m 0 c).flushed 3 t = ((cfg0.win 3).blk t).view.read (Elt Ideal) (totPos m c) := by
  have hN : cfg0.N = 32 := N_0
  have h31 : t.val = 31 := by have := (flush0_3 t).mp hf; have := t.isLt; omega
  obtain ⟨n, hn⟩ := t
  dsimp only at h31
  subst h31
  show (cfg0.win 3).cut (grid0.coords ⟨31, hn⟩) ((dats m 0 c).after 3 ⟨31, hn⟩) = _
  rw [after0_3]
  show (cfg0.win 3).cut (grid0.coords ⟨31, hn⟩) (outsAt0 m c 31 hn).2 = _
  rw [Chain.outsAt_eq m c 31 hn]
  show (cfg0.win 3).cut (grid0.coords ⟨31, hn⟩) (fun _ => Cert.Bce.acc (Chain.seqPos m c) 31 : Vec Ideal S1x1 .f32)
    = ((cfg0.win 3).blk ⟨31, hn⟩).view.read (Elt Ideal) (fun _ => Cert.Bce.acc (Chain.seqPos m c) 31 : Buf (Elt Ideal) ((c : Thread nD τ).loc main_v2_1))
  generalize Cert.Bce.acc (Chain.seqPos m c) 31 = A
  exact cut_const3 c ⟨31, hn⟩ A

/-- The first result array ends holding the total log-likelihood: the block written back after the last
    point is the whole array. -/
theorem final2 (c : Dev nD) : (dats m 0 c).arrAt 2 cfg0.N = totLL m c :=
  (dats m 0 c).arrAt_eq_of_cover 2 (totLL m c) (flushed2_eq m c) fun i =>
    ⟨tLast, (flush0_2 tLast).mpr (by decide), by
      show i ∈ ((View.whole main_v2_0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The second result array ends holding the number of positive examples: the block written back after the last
    point is the whole array. -/
theorem final3 (c : Dev nD) : (dats m 0 c).arrAt 3 cfg0.N = totPos m c :=
  (dats m 0 c).arrAt_eq_of_cover 3 (totPos m c) (flushed3_eq m c) fun i =>
    ⟨tLast, (flush0_3 tLast).mpr (by decide), by
      show i ∈ ((View.whole main_v2_1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

end Cert.KernelIdeal.Final

end
-- ==== Proof.KernelTail.lean ====
/-
  The operations after the kernel.

  The kernel leaves two 1×1 arrays: the total log-likelihood S and the number of positive examples P. The
  program then reads both as scalars and computes
      (−S) / ((1 + (2^24 − P)) · P),
  stored as a one-element array. `tailOut` is that chain of ten operations as one function of the two
  1×1 arrays, at any float instance; `run_tail` says the program's result array ends holding `tailOut` of the
  kernel's two result arrays, and that the two arguments end unchanged; `tailOut_apply` reads the chain over
  the extended reals, where it is the specification's `loss` of the two entries. The two constants stay the
  float words the program carries.
-/
import proofs.«175003_j19172734010147_2_alg».proof.Proof.Gen.KernelIdeal.Frame
import proofs.«175003_j19172734010147_2_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Tail

open Idealize.ShloMosaic Idealize.SL.Sem
open Cert.KernelIdeal Cert.KernelIdeal.Gen Idealize.ShloMosaic.ValueIdx

variable {F : FTy → Type} [FloatOps F]

/-- The operations after the kernel as one function of the kernel's two 1×1 result arrays:
    both read as scalars, `2^24 − P`, `−S`, `1 + (2^24 − P)`, times `P`, the quotient, as a one-element array. -/
def tailOut (a2 a3 : FVec F S1x1 .f32) : FVec F S1 .f32 :=
  let v3 : FVec F S_ .f32 := shapeCast S_ a2 Gen.shapeCasts_S1x1_S_
  let v4 : FVec F S_ .f32 := shapeCast S_ a3 Gen.shapeCasts_S1x1_S_
  let cst : FVec F S_ .f32 := constant S_ .f32 0x4B800000#32
  let v5 : FVec F S_ .f32 := subf cst v4
  let v6 : FVec F S_ .f32 := Host.negf v3
  let cst0 : FVec F S_ .f32 := constant S_ .f32 0x3F800000#32
  let v7 : FVec F S_ .f32 := addf cst0 v5
  let v8 : FVec F S_ .f32 := mulf v7 v4
  let v9 : FVec F S_ .f32 := Host.divf v6 v8
  shapeCast S1 v9 Gen.shapeCasts_S_S1

variable (m : (ℓ : Loc nD τ sig) → Buf (Elt F) ℓ)

/-- If the kernel's two result arrays end at `A2` and `A3`, the program's result array ends at
    `tailOut A2 A3`; the two argument arrays end as they started. -/
theorem run_tail (ρ : Dev nD → PrngReg) (A2 A3 : Dev nD → FVec F S1x1 .f32)
    (h2 : ∀ c, (dats m 0 c).arrAt 2 cfg0.N = A2 c) (h3 : ∀ c, (dats m 0 c).arrAt 3 cfg0.N = A3 c) :
    θ_run defs (onTc (τ := τ) (main (F := F))) ⟨m, fun _ => 0, ρ⟩ fun r => ∀ c : Dev nD,
      r.2.mem ((c.tc : Thread nD τ).loc main_v10) = tailOut (A2 c) (A3 c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · refine ((h c).2 main_v10 (Pipeline.mem_restRefs_of main_v10 (by decide) (by decide))).trans ?_
    -- the contents the later operations start from hold the kernel's two result arrays at A2 and A3
    have e2 : Pipeline.withArrays (cfgs 0).spec c (V0 m c) (fun w => (dats m 0 c).arrAt w (cfgs 0).N)
        (Proc.devRef .tc main_v2_0) = A2 c :=
      (Pipeline.withArrays_arr spec0 launch0.win.arr_inj c _ _ 2).trans (h2 c)
    have e3 : Pipeline.withArrays (cfgs 0).spec c (V0 m c) (fun w => (dats m 0 c).arrAt w (cfgs 0).N)
        (Proc.devRef .tc main_v2_1) = A3 c :=
      (Pipeline.withArrays_arr spec0 launch0.win.arr_inj c _ _ 3).trans (h3 c)
    unfold Pipeline.afterTail₀
    show StableHlo.after hostOps1 _ (Proc.devRef .tc main_v10) = _
    after_results
    rw [e2, e3]
    rfl
  · exact ((h c).2 main_arg0 (Pipeline.mem_restRefs_of main_arg0 (by decide) (by decide))).trans
      (W_main_arg0 m (dats m) c)
  · exact ((h c).2 main_arg1 (Pipeline.mem_restRefs_of main_arg1 (by decide) (by decide))).trans
      (W_main_arg1 m (dats m) c)

/-- A 1×1 array has one index. -/
instance subsingleton_S1x1 : Subsingleton S1x1.Idx :=
  ⟨fun a b => funext fun d => Fin.ext (by
    have ha := (a d).isLt
    have hb := (b d).isLt
    have hs : S1x1.size d = 1 := by fin_cases d <;> rfl
    omega)⟩

/-- Over the extended reals the chain is the specification's loss of the two entries. -/
theorem tailOut_apply (a2 a3 : FVec Ideal S1x1 .f32) :
    tailOut (F := Ideal) a2 a3
      = fun _ => Cert.Bce.loss (a2 (ix2 (0 : Fin 1) (0 : Fin 1))) (a3 (ix2 (0 : Fin 1) (0 : Fin 1))) := by
  funext j
  have e2 : ∀ k : S1x1.Idx, a2 k = a2 (ix2 (0 : Fin 1) (0 : Fin 1)) := fun k => congrArg a2 (Subsingleton.elim _ _)
  have e3 : ∀ k : S1x1.Idx, a3 k = a3 (ix2 (0 : Fin 1) (0 : Fin 1)) := fun k => congrArg a3 (Subsingleton.elim _ _)
  unfold tailOut Cert.Bce.loss Cert.Bce.one Cert.Bce.count
  dsimp only [shapeCast, Host.negf, Host.divf, subf, addf, mulf, constant]
  rw [e2 (Shape.reshapeEquiv _ _), e3 (Shape.reshapeEquiv _ _)]
  rfl

end Cert.KernelIdeal.Tail

end
-- ==== Proof.KernelBlocks.lean ====
/-
  From blocks to the flat array.

  The program views each flat argument of 2^24 entries as 131072 rows of 128 lanes (same entries, row-major
  order), and at grid point t the kernel is handed rows 4096·t … 4096·t + 4095 of each view. So entry (r, l) of
  the block at point t is entry (4096·t + r, l) of the view, which is entry (4096·t + r)·128 + l of the flat
  argument: the specification's `flat t r l`.

  A block's coordinate along an axis is (block index) × (block size) + (coordinate inside the block); the block
  index at point t is (t, 0) for both inputs, checked once over the 32 grid points.
-/
import proofs.«175003_j19172734010147_2_alg».proof.Proof.Gen.KernelIdeal.Frame
import proofs.«175003_j19172734010147_2_alg».proof.Proof.Spec
import Idealize.ShloMosaic.Lib.Pipeline.Value
import Idealize.ShloMosaic.Lib.ValueIdx
import Idealize.ShloMosaic.Lib.StableHlo.Run

noncomputable section

namespace Cert.KernelIdeal.Blocks

open Idealize.ShloMosaic Idealize.SL.Sem
open Cert.KernelIdeal Cert.KernelIdeal.Gen Idealize.ShloMosaic.ValueIdx

variable {F : FTy → Type} [FloatOps F]
variable (m : (ℓ : Loc nD τ sig) → Buf (Elt F) ℓ)

/-- The first input's block index at point `t` is `(t, 0)`. -/
theorem idx0 : ∀ t : Fin cfg0.N, win0_0.index t 0 = t.val ∧ win0_0.index t 1 = 0 :=
  (by decide +kernel : ∀ t : Fin grid0.N, win0_0.index t 0 = t.val ∧ win0_0.index t 1 = 0)

/-- The second input's block index at point `t` is `(t, 0)`. -/
theorem idx1 : ∀ t : Fin cfg0.N, win0_1.index t 0 = t.val ∧ win0_1.index t 1 = 0 :=
  (by decide +kernel : ∀ t : Fin grid0.N, win0_1.index t 0 = t.val ∧ win0_1.index t 1 = 0)

/-- When the kernel starts, the 131072×128 view of the scores is the flat argument in row-major order. -/
theorem V_v0 (c : Dev nD) : (V m c main_v0 : S131072x128.Idx → Elt F .f32)
    = shapeCast S131072x128 (m ((c.tc : Thread nD τ).loc main_arg0)) Gen.shapeCasts_S16777216_S131072x128 := by
  show StableHlo.after hostOps0 (fun b => m (c, b)) (Proc.devRef .tc main_v0) = _
  after_results
  rfl

/-- When the kernel starts, the 131072×128 view of the labels is the flat argument in row-major order. -/
theorem V_v1 (c : Dev nD) : (V m c main_v1 : S131072x128.Idx → Elt F .i32)
    = shapeCast S131072x128 (m ((c.tc : Thread nD τ).loc main_arg1)) Gen.shapeCasts_S16777216_S131072x128 := by
  show StableHlo.after hostOps0 (fun b => m (c, b)) (Proc.devRef .tc main_v1) = _
  after_results
  rfl

/-- Entry `(r, l)` of the scores' block at point `t` is entry `flat t r l` of the flat scores. -/
theorem iblk0_apply (c : Dev nD) (t : Fin cfg0.N) (r : Fin 4096) (l : Fin 128) :
    (iblk m c 0 t : Vec F S4096x128 .f32) (ix2 r l)
      = m ((c.tc : Thread nD τ).loc main_arg0) (ix1 (Cert.Bce.flat ⟨t.val, lt_of_lt_of_eq t.isLt N_0⟩ r l)) := by
  have hi := idx0 t
  unfold iblk
  rw [View.read_apply]
  refine (congrFun (V_v0 m c) _).trans ?_
  refine shapeCast_apply _ _ _ _ ?_
  refine (Shape.rowMajor_val_one (d := ![16777216]) (ix1 _)).trans ?_
  refine ((Shape.rowMajor_val_two (d := ![131072, 128]) _).trans ?_).symm
  show (win0_0.index t 0 * 4096 + 1 * r.val) * 128 + (win0_0.index t 1 * 128 + 1 * l.val)
    = (t.val * 4096 + r.val) * 128 + l.val
  rw [hi.1, hi.2]
  omega

/-- Entry `(r, l)` of the labels' block at point `t` is entry `flat t r l` of the flat labels. -/
theorem iblk1_apply (c : Dev nD) (t : Fin cfg0.N) (r : Fin 4096) (l : Fin 128) :
    (iblk m c 1 t : Vec F S4096x128 .i32) (ix2 r l)
      = m ((c.tc : Thread nD τ).loc main_arg1) (ix1 (Cert.Bce.flat ⟨t.val, lt_of_lt_of_eq t.isLt N_0⟩ r l)) := by
  have hi := idx1 t
  unfold iblk
  rw [View.read_apply]
  refine (congrFun (V_v1 m c) _).trans ?_
  refine shapeCast_apply _ _ _ _ ?_
  refine (Shape.rowMajor_val_one (d := ![16777216]) (ix1 _)).trans ?_
  refine ((Shape.rowMajor_val_two (d := ![131072, 128]) _).trans ?_).symm
  show (win0_1.index t 0 * 4096 + 1 * r.val) * 128 + (win0_1.index t 1 * 128 + 1 * l.val)
    = (t.val * 4096 + r.val) * 128 + l.val
  rw [hi.1, hi.2]
  omega

end Cert.KernelIdeal.Blocks

end
-- ==== Proof.KernelValue.lean ====
/-
  The kernel program's value.

  After the last grid point each of the kernel's two result arrays holds a running total of block totals:
  ((0 + b 0) + b 1) + … + b 31. A running total is the plain sum of the b's; block t's total is the double sum
  over its rows and lanes of the terms of the flat entries (t · 4096 + r) · 128 + l; and every flat position is
  of that form for exactly one (t, r, l). So the first array holds the total log-likelihood of the flat
  arguments and the second the number of positive examples. The operations after the kernel turn the two into
  the specification's loss, which is therefore what the program's result array ends holding.
-/
import proofs.«175003_j19172734010147_2_alg».proof.Proof.KernelFinal
import proofs.«175003_j19172734010147_2_alg».proof.Proof.KernelTail
import proofs.«175003_j19172734010147_2_alg».proof.Proof.KernelBlocks
import proofs.«175003_j19172734010147_2_alg».proof.Proof.Regroup
import proofs.«175003_j19172734010147_2_alg».proof.Proof.Spec

noncomputable section

open Idealize.ShloMosaic Idealize.ShloMosaic.TcCoe Idealize.SL.Sem Idealize.ShloMosaic.ValueIdx

namespace Cert.KernelIdeal.Total

open Cert.KernelIdeal Cert.KernelIdeal.Gen

variable (m : (ℓ : Loc nD τ sig) → Buf (Elt Ideal) ℓ) (ρ : Dev nD → PrngReg)

/-- Block `t`'s total log-likelihood, read off the flat arguments: entry `(r, l)` of block `t` is entry
    `flat t r l` of the flat array. -/
theorem blockLL_eq (c : Dev nD) (t : Fin cfg0.N) :
    Chain.blockLL m c t = ∑ r : Fin 4096, ∑ l : Fin 128,
      Cert.Bce.term
        (m ((c.tc : Thread nD τ).loc main_arg0) (ix1 (Cert.Bce.flat ⟨t.val, lt_of_lt_of_eq t.isLt N_0⟩ r l)))
        (m ((c.tc : Thread nD τ).loc main_arg1) (ix1 (Cert.Bce.flat ⟨t.val, lt_of_lt_of_eq t.isLt N_0⟩ r l))) := by
  unfold Chain.blockLL
  refine Finset.sum_congr rfl fun r _ => Finset.sum_congr rfl fun l _ => ?_
  exact congrArg₂ Cert.Bce.term (Blocks.iblk0_apply m c t r l) (Blocks.iblk1_apply m c t r l)

/-- Block `t`'s number of positive examples, read off the flat labels. -/
theorem blockPos_eq (c : Dev nD) (t : Fin cfg0.N) :
    Chain.blockPos m c t = ∑ r : Fin 4096, ∑ l : Fin 128,
      Cert.Bce.lbl
        (m ((c.tc : Thread nD τ).loc main_arg1) (ix1 (Cert.Bce.flat ⟨t.val, lt_of_lt_of_eq t.isLt N_0⟩ r l))) := by
  unfold Chain.blockPos
  refine Finset.sum_congr rfl fun r _ => Finset.sum_congr rfl fun l _ => ?_
  exact congrArg Cert.Bce.lbl (Blocks.iblk1_apply m c t r l)

/-- The running total over all 32 blocks is the flat total log-likelihood. -/
theorem acc_seqLL (c : Dev nD) : Cert.Bce.acc (Chain.seqLL m c) 31
    = Cert.Bce.sumTerm (fun k => m ((c.tc : Thread nD τ).loc main_arg0) (ix1 k))
        (fun k => m ((c.tc : Thread nD τ).loc main_arg1) (ix1 k)) := by
  have hN : cfg0.N = 32 := N_0
  rw [Cert.Bce.acc_eq_sum, show (31 : ℕ) + 1 = 32 from rfl, Finset.sum_range]
  refine Eq.trans ?_ (Cert.Bce.sum_flat (M := EReal) (fun k => Cert.Bce.term
    (m ((c.tc : Thread nD τ).loc main_arg0) (ix1 k)) (m ((c.tc : Thread nD τ).loc main_arg1) (ix1 k))))
  refine Finset.sum_congr rfl fun t _ => ?_
  have ht : t.val < cfg0.N := by rw [hN]; exact t.isLt
  unfold Chain.seqLL
  rw [dif_pos ht]
  exact blockLL_eq m c ⟨t.val, ht⟩

/-- The running total of the blocks' positive counts is the flat number of positive examples. -/
theorem acc_seqPos (c : Dev nD) : Cert.Bce.acc (Chain.seqPos m c) 31
    = Cert.Bce.sumLbl (fun k => m ((c.tc : Thread nD τ).loc main_arg1) (ix1 k)) := by
  have hN : cfg0.N = 32 := N_0
  rw [Cert.Bce.acc_eq_sum, show (31 : ℕ) + 1 = 32 from rfl, Finset.sum_range]
  refine Eq.trans ?_ (Cert.Bce.sum_flat (M := EReal) (fun k => Cert.Bce.lbl
    (m ((c.tc : Thread nD τ).loc main_arg1) (ix1 k))))
  refine Finset.sum_congr rfl fun t _ => ?_
  have ht : t.val < cfg0.N := by rw [hN]; exact t.isLt
  unfold Chain.seqPos
  rw [dif_pos ht]
  exact blockPos_eq m c ⟨t.val, ht⟩

/-- The kernel program's run: its result is the specification's loss of the two flat argument arrays, and the
    arguments end unchanged. -/
theorem run : θ_run defs (onTc (τ := τ) (main (F := Ideal))) ⟨m, fun _ => 0, ρ⟩ fun r => ∀ c : Dev nD,
    r.2.mem ((c.tc : Thread nD τ).loc main_v10)
      = (fun _ => Cert.Bce.result (fun k => m ((c.tc : Thread nD τ).loc main_arg0) (ix1 k))
          (fun k => m ((c.tc : Thread nD τ).loc main_arg1) (ix1 k)))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ⟨(h c).1.trans ?_, (h c).2⟩)
    (Tail.run_tail m ρ (Final.totLL m) (Final.totPos m) (Final.final2 m) (Final.final3 m))
  rw [Tail.tailOut_apply]
  funext j
  dsimp only [Final.totLL, Final.totPos]
  rw [acc_seqLL, acc_seqPos]
  rfl

end Cert.KernelIdeal.Total

end
-- ==== Proof.IntSum.lean ====
/-
  The wrapping 32-bit sum of labels that are each 0 or 1 does not wrap.

  Read as natural numbers, a wrapping sum of words is the true sum modulo 2^32. With every word 0 or 1 the
  true sum of 2^24 of them is at most 2^24 < 2^31, so the reduction modulo 2^32 changes nothing and the
  signed reading of the result is the true sum; the signed reading of each word is its natural-number
  reading as well. Casting to the extended reals commutes with finite sums of reals.
-/
import proofs.«175003_j19172734010147_2_alg».proof.Proof.Spec
import Idealize.ShloMosaic.PureOps.Reduce

noncomputable section

namespace Cert.Bce

open Idealize.ShloMosaic

/-- The wrapping sum of a family of words, read as a natural number, is the true sum modulo 2^32. -/
theorem fold_addi_toNat {ι : Type*} [DecidableEq ι] (s : Finset ι) (l : ι → BitVec 32) :
    (s.fold IntOp.addi 0#32 l).toNat = (∑ k ∈ s, (l k).toNat) % 2 ^ 32 := by
  induction s using Finset.induction_on with
  | empty => simp
  | insert a s ha ih =>
    rw [Finset.fold_insert ha, Finset.sum_insert ha]
    show (l a + s.fold IntOp.addi 0#32 l).toNat = _
    rw [BitVec.toNat_add, ih]
    omega

/-- A word whose signed reading is 0 or 1 has natural-number reading at most 1, equal to the signed one. -/
theorem toNat_of_binary (x : BitVec 32) (h : 0 ≤ x.toInt ∧ x.toInt ≤ 1) :
    x.toNat ≤ 1 ∧ x.toInt = (x.toNat : ℤ) := by
  have hlt := x.isLt
  rw [BitVec.toInt_eq_toNat_cond] at h ⊢
  by_cases hc : 2 * x.toNat < 2 ^ 32
  · rw [if_pos hc] at h ⊢
    omega
  · rw [if_neg hc] at h ⊢
    omega

/-- The cast from the reals to the extended reals commutes with finite sums. -/
theorem coe_sum_ereal {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The wrapping sum of 2^24 labels that are each 0 or 1, read signed, is the true number of ones. -/
theorem lbl_fold_addi (l : Fin 16777216 → BitVec 32) (h : Binary l) :
    lbl ((Finset.univ : Finset (Fin 16777216)).fold IntOp.addi 0#32 l) = sumLbl l := by
  have hb : ∀ k, (l k).toNat ≤ 1 ∧ (l k).toInt = ((l k).toNat : ℤ) :=
    fun k => toNat_of_binary (l k) (h k)
  have hcard : (Finset.univ : Finset (Fin 16777216)).card = 16777216 := by
    rw [Finset.card_univ, Fintype.card_fin]
  have hsum : (∑ k : Fin 16777216, (l k).toNat) ≤ 16777216 := by
    have := Finset.sum_le_card_nsmul (Finset.univ : Finset (Fin 16777216)) (fun k => (l k).toNat) 1
      (fun k _ => (hb k).1)
    rw [hcard] at this
    simpa using this
  have hN := fold_addi_toNat (Finset.univ : Finset (Fin 16777216)) l
  rw [Nat.mod_eq_of_lt (by omega)] at hN
  have hI : ((Finset.univ : Finset (Fin 16777216)).fold IntOp.addi 0#32 l).toInt
      = ((∑ k : Fin 16777216, (l k).toNat : ℕ) : ℤ) := by
    rw [BitVec.toInt_eq_toNat_cond, if_pos (by omega), hN]
  unfold lbl sumLbl
  rw [hI]
  have hcast : (((∑ k : Fin 16777216, (l k).toNat : ℕ) : ℤ) : ℝ) = ∑ k : Fin 16777216, (((l k).toInt : ℤ) : ℝ) := by
    rw [Int.cast_natCast, Nat.cast_sum]
    refine Finset.sum_congr rfl fun k _ => ?_
    rw [(hb k).2, Int.cast_natCast]
  rw [hcast, coe_sum_ereal]
  exact Finset.sum_congr rfl fun k _ => rfl

end Cert.Bce

end
-- ==== Proof.PreLabels.lean ====
/-
  What the precondition says of the labels.

  The precondition is the conjunction of three tests, each an "and" over all 2^24 positions: the scores are
  finite, every label is ≥ 0 (signed), every label is ≤ 1 (signed). A conjunction of one-bit words is 1 only
  if both are 1; an "and" over all positions is 1 only if the tested bit is 1 at every position; and the bit
  of a signed comparison is 1 exactly when the comparison of the signed readings holds. The compared
  constant is a broadcast scalar, so at every position it is the scalar itself. Hence every label, read
  signed, lies between 0 and 1.
-/
import proofs.«175003_j19172734010147_2_alg».proof.Proof.Spec
import proofs.«175003_j19172734010147_2_alg».proof.Pre_finite_inputs
import proofs.«175003_j19172734010147_2_alg».proof.Proof.Gen.Pre_finite_inputs
import Idealize.ShloMosaic.Lib.ReduceAll
import Idealize.ShloMosaic.Lib.Affine

noncomputable section

namespace Cert.Bce

open Idealize.ShloMosaic

/-- The rank-0 shape has one index. -/
instance subsingleton_scalar_idx : Subsingleton Cert.Pre_finite_inputs.S_.Idx :=
  ⟨fun _ _ => funext fun d => d.elim0⟩

/-- If the precondition holds, every label is 0 or 1. -/
theorem binary_of_pre {F : FTy → Type} [FloatOps F] (p : FVec F Cert.Pre_finite_inputs.S16777216 .f32)
    (lab : IVec Cert.Pre_finite_inputs.S16777216 32)
    (h : Cert.Pre_finite_inputs.fn (F := F) p lab = fun _ => 1#1) : Binary (fun k => lab (ValueIdx.ix1 k)) := by
  have h0 := congrFun h ValueIdx.ix0
  dsimp only [Cert.Pre_finite_inputs.fn] at h0
  obtain ⟨h7, h10⟩ := IntOp.andi_eq_one.1 h0
  obtain ⟨_, h6⟩ := IntOp.andi_eq_one.1 h7
  intro k
  have hge := Host.reduce_andi_all _ _ _ _ _ h6 (ValueIdx.ix1 k)
  have hle := Host.reduce_andi_all _ _ _ _ _ h10 (ValueIdx.ix1 k)
  have hge' : (0#32).toInt ≤ (lab (ValueIdx.ix1 k)).toInt := IntOp.cmpi_sge.1 hge
  have hle' : (lab (ValueIdx.ix1 k)).toInt ≤ (1#32).toInt := IntOp.cmpi_sle.1 hle
  have e0 : (0#32).toInt = 0 := by decide
  have e1 : (1#32).toInt = 1 := by decide
  rw [e0] at hge'
  rw [e1] at hle'
  exact ⟨hge', hle'⟩

end Cert.Bce

end
-- ==== Proof.lean ====
/-
  Binary cross-entropy summed over 2^24 examples: a kernel that streams the scores and labels in 32 row blocks of
  4096×128, accumulating the total log-likelihood and the number of positive labels across the blocks, against the
  whole-array computation; both then form  −S / ((1 + (2^24 − P)) · P).

  On the extended reals the two programs compute each example's term by the same operations (the kernel writes `−x`
  as `0 − x`; both carry a not-equal-to-itself guard that never holds), and a sum of extended reals does not depend on
  how it is grouped, so the kernel's lanes-then-rows-then-blocks total is the flat total. The one place they differ is
  the count of positive labels: the kernel adds the labels as numbers, the whole-array computation adds them as 32-bit
  words and converts the result. For labels that are each 0 or 1 the word sum is at most 2^24 and cannot wrap, so the
  two counts agree; that is the stated domain.

  The frames of the two kernel programs are the generated ones; the whole-array program's frame is its run with the
  result dropped; nothing was rewritten when the kernel was idealized.
-/
import proofs.«175003_j19172734010147_2_alg».proof.Defs
import proofs.«175003_j19172734010147_2_alg».proof.Proof.Gen.Kernel.Frame
import proofs.«175003_j19172734010147_2_alg».proof.Proof.Gen.KernelIdeal.Frame
import proofs.«175003_j19172734010147_2_alg».proof.Proof.Gen.ReferenceIdeal
import proofs.«175003_j19172734010147_2_alg».proof.Proof.Gen.Pre_finite_inputs
import proofs.«175003_j19172734010147_2_alg».proof.Proof.RefRun
import proofs.«175003_j19172734010147_2_alg».proof.Proof.RefValue
import proofs.«175003_j19172734010147_2_alg».proof.Proof.KernelValue
import proofs.«175003_j19172734010147_2_alg».proof.Proof.IntSum
import proofs.«175003_j19172734010147_2_alg».proof.Proof.PreLabels

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The whole-array program runs and leaves its arguments as they were: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories agreeing on scores and labels, with every label 0 or 1, both programs end at the specification's
    loss of the two flat arrays. -/
theorem algebraic : Cert.algebraic_KernelIdeal_ReferenceIdeal := by
  intro m ρ m' ρ' hpre hagree
  refine ⟨fun c => fun _ => Cert.Bce.result
      (fun k => m ((c.tc : Thread Cert.KernelIdeal.nD Cert.KernelIdeal.τ).loc Cert.KernelIdeal.main_arg0) (ix1 k))
      (fun k => m ((c.tc : Thread Cert.KernelIdeal.nD Cert.KernelIdeal.τ).loc Cert.KernelIdeal.main_arg1) (ix1 k)),
    Cert.KernelIdeal.Total.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.refOut_eq _ _ (Cert.Bce.lbl_fold_addi _ (Cert.Bce.binary_of_pre _ _ (hpre c)))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
